-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x128x128 : Shape := ⟨3, ![4096, 128, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x128x128 : S_.BroadcastsInDim S4096x128x128 (![] : Fin 0 → Fin S4096x128x128.rank)
  reducesTo_S4096x128x128_S_d0_1_2 : S4096x128x128.ReducesTo [0, 1, 2] S_

variable [Facts]

def fn {F : FTy → Type} [FloatOps F] (main_arg0 : FVec F S4096x128 .f32) (main_arg1 : FVec F S4096x128x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128x128 .f32 := Host.absf main_arg1
  let main_cst_0 : FVec F S_ .f32 := constant S_ .f32 0x7F800000#32
  let main_v5 : FVec F S4096x128x128 .f32 := broadcastInDim S4096x128x128 ![] bcast_S_S4096x128x128 main_cst_0
  let main_v6 : IVec S4096x128x128 1 := cmpf .olt main_v4 main_v5
  let main_c_1 : IVec S_ 1 := constantI S_ 1 1#1
  let main_v7 : IVec S_ 1 := (fun x v => Host.reduce IntOp.andi x v reducesTo_S4096x128x128_S_d0_1_2 h_S_) main_v6 main_c_1
  let main_v8 : IVec S_ 1 := andi main_v3 main_v7
  main_v8
-- ==== Kernel.lean ====
abbrev S4096x128 : Shape := ⟨2, ![4096, 128]⟩
abbrev S4096x128x128 : Shape := ⟨3, ![4096, 128, 128]⟩
abbrev S128x128 : Shape := ⟨2, ![128, 128]⟩
abbrev S128x128x128 : Shape := ⟨3, ![128, 128, 128]⟩
abbrev S128 : Shape := ⟨1, ![128]⟩
abbrev S128x1 : Shape := ⟨2, ![128, 1]⟩
abbrev S128x128x1 : Shape := ⟨3, ![128, 128, 1]⟩
abbrev S128x1x128 : Shape := ⟨3, ![128, 1, 128]⟩

abbrev nBuf : Space → Nat
  | .hbm => 4
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S4096x128x128, .f32⟩
  | .hbm, ⟨2, _⟩ => ⟨S4096x128, .f32⟩
  | .hbm, ⟨3, _⟩ => ⟨S4096x128x128, .f32⟩
  | .local _ .vmem, ⟨0, _⟩ => ⟨S128x128, .f32⟩
  | .local _ .vmem, ⟨1, _⟩ => ⟨S128x128, .f32⟩
  | .local _ .vmem, ⟨2, _⟩ => ⟨S128x128x128, .f32⟩
  | .local _ .vmem, ⟨3, _⟩ => ⟨S128x128x128, .f32⟩
  | .local _ .vmem, ⟨4, _⟩ => ⟨S128x128, .f32⟩
  | .local _ .vmem, ⟨5, _⟩ => ⟨S128x128, .f32⟩
  | .local _ .vmem, ⟨6, _⟩ => ⟨S128x128x128, .f32⟩
  | .local _ .vmem, ⟨7, _⟩ => ⟨S128x128x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S128x128_S128x128_0_0 : ∀ a, (![0, 0] : Fin 2 → Nat) a + S128x128.size a ≤ S128x128.size a
  h_S128x128 : 0 < S128x128.numel
  reduces_S128x128_S128 : S128x128.Reduces [1] S128
  shapeCasts_S128_S128x1 : S128.ShapeCasts S128x1
  broadcasts_S128x1_S128x128 : S128x1.Broadcasts S128x128
  inb_S128x128x128_S128x128x128_0_0_0 : ∀ a, (![0, 0, 0] : Fin 3 → Nat) a + S128x128x128.size a ≤ S128x128x128.size a
  h_S128x128x128 : 0 < S128x128x128.numel
  shapeCasts_S128x128_S128x128x1 : S128x128.ShapeCasts S128x128x1
  broadcasts_S128x128x1_S128x128x128 : S128x128x1.Broadcasts S128x128x128
  reduces_S128x128x128_S128x128 : S128x128x128.Reduces [1] S128x128
  shapeCasts_S128x128_S128x1x128 : S128x128.ShapeCasts S128x1x128
  broadcasts_S128x1x128_S128x128x128 : S128x1x128.Broadcasts S128x128x128
  reduces_S128x128x128_S128x128_2 : S128x128x128.Reduces [2] S128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S4096x128.size a
  hwx0_0 : ∀ i : grid0.Coords, EltTy.bits .f32 = 32 ∨ (Rect.block (s := S4096x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128x128.size a ≤ S4096x128x128.size a
  hwx0_1 : ∀ i : grid0.Coords, EltTy.bits .f32 = 32 ∨ (Rect.block (s := S4096x128x128) S128x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S4096x128.size a
  hwx0_2 : ∀ i : grid0.Coords, EltTy.bits .f32 = 32 ∨ (Rect.block (s := S4096x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128x128.size a ≤ S4096x128x128.size a
  hwx0_3 : ∀ i : grid0.Coords, EltTy.bits .f32 = 32 ∨ (Rect.block (s := S4096x128x128) S128x128x128.size (cc0_transform_3 i) (hinb0_3 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S128x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S128x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096x128x128 : Shape := ⟨3, ![4096, 128, 128]⟩
abbrev S_ : Shape := ⟨0, ![]⟩
abbrev S4096 : Shape := ⟨1, ![4096]⟩
abbrev S4096x1 : Shape := ⟨2, ![4096, 1]⟩
abbrev S128x128 : Shape := ⟨2, ![128, 128]⟩
abbrev S4096x128x1 : Shape := ⟨3, ![4096, 128, 1]⟩
abbrev S1x128x128 : Shape := ⟨3, ![1, 128, 128]⟩
abbrev S4096x1x128 : Shape := ⟨3, ![4096, 1, 128]⟩

abbrev nBuf : Space → Nat
  | .hbm => 36
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128x128, .f32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x128, .f32⟩
  | .hbm, ⟨15, _⟩ => ⟨S4096x128, .f32⟩
  | .hbm, ⟨16, _⟩ => ⟨S128x128, .i32⟩
  | .hbm, ⟨17, _⟩ => ⟨S128x128, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S128x128, .i1⟩
  | .hbm, ⟨22, _⟩ => ⟨S128x128, .f32⟩
  | .hbm, ⟨23, _⟩ => ⟨S4096x128x1, .f32⟩
  | .hbm, ⟨24, _⟩ => ⟨S1x128x128, .f32⟩
  | .hbm, ⟨25, _⟩ => ⟨S4096x128x128, .f32⟩
  | .hbm, ⟨26, _⟩ => ⟨S4096x128x128, .f32⟩
  | .hbm, ⟨27, _⟩ => ⟨S4096x128x128, .f32⟩
  | .hbm, ⟨28, _⟩ => ⟨S4096x128x1, .f32⟩
  | .hbm, ⟨29, _⟩ => ⟨S4096x1x128, .f32⟩
  | .hbm, ⟨30, _⟩ => ⟨S4096x128x128, .f32⟩
  | .hbm, ⟨31, _⟩ => ⟨S4096x128x128, .f32⟩
  | .hbm, ⟨32, _⟩ => ⟨S4096x128x128, .f32⟩
  | .hbm, ⟨33, _⟩ => ⟨S4096x128x128, .f32⟩
  | .hbm, ⟨34, _⟩ => ⟨S4096x128x128, .f32⟩
  | .hbm, ⟨35, _⟩ => ⟨S4096x128x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S_S128x128 : S_.BroadcastsInDim S128x128 (![] : Fin 0 → Fin S128x128.rank)
  bcast_S4096x128_S4096x128x1_0_1 : S4096x128.BroadcastsInDim S4096x128x1 (![0, 1] : Fin 2 → Fin S4096x128x1.rank)
  bcast_S128x128_S1x128x128_1_2 : S128x128.BroadcastsInDim S1x128x128 (![1, 2] : Fin 2 → Fin S1x128x128.rank)
  bcast_S4096x128x1_S4096x128x128_0_1_2 : S4096x128x1.BroadcastsInDim S4096x128x128 (![0, 1, 2] : Fin 3 → Fin S4096x128x128.rank)
  bcast_S1x128x128_S4096x128x128_0_1_2 : S1x128x128.BroadcastsInDim S4096x128x128 (![0, 1, 2] : Fin 3 → Fin S4096x128x128.rank)
  bcast_S4096x128_S4096x1x128_0_2 : S4096x128.BroadcastsInDim S4096x1x128 (![0, 2] : Fin 2 → Fin S4096x1x128.rank)
  bcast_S4096x1x128_S4096x128x128_0_1_2 : S4096x1x128.BroadcastsInDim S4096x128x128 (![0, 1, 2] : Fin 3 → Fin S4096x128x128.rank)
  dot_S4096x128x128_S4096x128x128_S4096x128x128_1_2_2_1_0_0_wf : DotDims.WF S4096x128x128 S4096x128x128 S4096x128x128 [1] [2] [2] [1] [0] [0]

variable [Facts₀]

def dot_S4096x128x128_S4096x128x128_S4096x128x128_1_2_2_1_0_0 : DotDims S4096x128x128 S4096x128x128 S4096x128x128 where
  lhsContracting := [1]
  rhsContracting := [2]
  lhsNonContracting := [2]
  rhsNonContracting := [1]
  lhsBatch := [0]
  rhsBatch := [0]
  wf := dot_S4096x128x128_S4096x128x128_S4096x128x128_1_2_2_1_0_0_wf

class Facts : Prop extends Facts₀ where

variable [Facts]
-- ==== Proof.SpecDefs.lean ====
/-
  The mathematics both programs compute, stated once over plain index types.

  For one batch element: a row `x` of logits gives the softmax `p = softRow x`,
  `p j = exp (x j - max x) / ∑ k, exp (x k - max x)`. The softmax Jacobian is
  `J i j = p i * δ i j - p i * p j`, and the output covariance is the sandwich `J σ Jᵀ`.

  The reference forms `J` and contracts twice: `sandR p σ i l = ∑ k, (∑ j, σ j k * J i j) * J l k`.
  The kernel uses that `J` is a diagonal minus a rank-one matrix, so that each product collapses to a
  matrix–vector product: with `s k = ∑ j, p j * σ j k` and `tmp i k = p i * (σ i k - s k)` (this is `(J σ) i k`),
  `sandK p σ i l = p l * (tmp i l - ∑ k, tmp i k * p k)` (this is `(tmp Jᵀ) i l`).

  The array-level functions `G0`, `G1K`, `G1R` apply these per batch row `b` of `mu : [4096, 128]` and
  `σ : [4096, 128, 128]`.
-/
import Idealize.ShloMosaic.PureOps.Ideal
import Idealize.ShloMosaic.Lib.ValueIdx

noncomputable section

namespace Cert.Sandwich

open Idealize.ShloMosaic Idealize.ShloMosaic.ValueIdx

variable {n : ℕ}

/-- The maximum of a row: the fold of `max` from `-∞` over its entries. -/
def rowMax (x : Fin n → EReal) : EReal := (Finset.univ : Finset (Fin n)).fold max ⊥ x

/-- The shifted exponentials `exp (x j - max x)`. -/
def rowExp (x : Fin n → EReal) (j : Fin n) : EReal := Ideal.exp (x j - rowMax x)

/-- The softmax of a row. -/
def softRow (x : Fin n → EReal) (j : Fin n) : EReal := Ideal.div (rowExp x j) (∑ k, rowExp x k)

/-- `s k = ∑ j, p j * σ j k`: the row vector `pᵀ σ`. -/
def colSum (p : Fin n → EReal) (σ : Fin n → Fin n → EReal) (k : Fin n) : EReal := ∑ j, p j * σ j k

/-- `tmp i k = p i * (σ i k - s k)`: the product `J σ`, collapsed. -/
def tmpK (p : Fin n → EReal) (σ : Fin n → Fin n → EReal) (i k : Fin n) : EReal := p i * (σ i k - colSum p σ k)

/-- The kernel's form of `J σ Jᵀ`. -/
def sandK (p : Fin n → EReal) (σ : Fin n → Fin n → EReal) (i l : Fin n) : EReal :=
  p l * (tmpK p σ i l - ∑ k, tmpK p σ i k * p k)

/-- The identity matrix's entry. -/
def delta (i j : Fin n) : EReal := if i = j then 1 else 0

/-- The softmax Jacobian `J i j = p i * δ i j - p i * p j`. -/
def jac (p : Fin n → EReal) (i j : Fin n) : EReal := p i * delta i j - p i * p j

/-- The reference's form of `J σ Jᵀ`: two contractions. -/
def sandR (p : Fin n → EReal) (σ : Fin n → Fin n → EReal) (i l : Fin n) : EReal :=
  ∑ k, (∑ j, σ j k * jac p i j) * jac p l k

/-! ## Over the arrays -/

/-- Row `b` of `mu`. -/
def muRow (mu : (⟨2, ![4096, 128]⟩ : Shape).Idx → EReal) (b : Fin 4096) : Fin 128 → EReal := fun j => mu (ix2 b j)

/-- Matrix `b` of `σ`. -/
def sigMat (σ : (⟨3, ![4096, 128, 128]⟩ : Shape).Idx → EReal) (b : Fin 4096) : Fin 128 → Fin 128 → EReal :=
  fun a c => σ (ix3 b a c)

/-- The first result: the softmax of every row. -/
def G0 (mu : (⟨2, ![4096, 128]⟩ : Shape).Idx → EReal) : (⟨2, ![4096, 128]⟩ : Shape).Idx → EReal :=
  fun i => softRow (muRow mu (i 0)) (i 1)

/-- The second result as the kernel computes it. -/
def G1K (mu : (⟨2, ![4096, 128]⟩ : Shape).Idx → EReal) (σ : (⟨3, ![4096, 128, 128]⟩ : Shape).Idx → EReal) :
    (⟨3, ![4096, 128, 128]⟩ : Shape).Idx → EReal :=
  fun i => sandK (softRow (muRow mu (i 0))) (sigMat σ (i 0)) (i 1) (i 2)

/-- The second result as the reference computes it. -/
def G1R (mu : (⟨2, ![4096, 128]⟩ : Shape).Idx → EReal) (σ : (⟨3, ![4096, 128, 128]⟩ : Shape).Idx → EReal) :
    (⟨3, ![4096, 128, 128]⟩ : Shape).Idx → EReal :=
  fun i => sandR (softRow (muRow mu (i 0))) (sigMat σ (i 0)) (i 1) (i 2)

end Cert.Sandwich

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibRank3.lean ====
/-
  Layout operations and one-axis reductions of rank-3 arrays read at an index written by coordinates.

  A reduction of `[a, b, c]` over its middle or its last axis with kept dimensions comes back over the reduced
  axis through a cast to `[a, 1, c]` (or `[a, b, 1]`) and a broadcast to `[a, b, c]`; the same two steps carry a
  matrix `[a, b]` along a new last axis (`[a, b] → [a, b, 1] → [a, b, c]`) or along a new middle axis
  (`[a, c] → [a, 1, c] → [a, b, c]`). Each is read here at `(i, j, k)`. The reductions: at the ideal values a sum
  over one axis is the `Fin`-indexed sum over that axis's coordinates, and a maximum over the last axis of a matrix
  is the fold of `max` over them. General lemmas: any extents.
-/
import Idealize.ShloMosaic.Lib.Pipeline.Value
import Idealize.ShloMosaic.Lib.ValueIdx
import Idealize.ShloMosaic.PureOps.Ideal.Laws

namespace Cert.LibRank3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A matrix carried along a new last axis: `[a, b] → [a, b, 1] → [a, b, c]` at `(i, j, k)` is the matrix at `(i, j)`. -/
theorem keepLast_apply {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x h) h' (ix3 i j k) = x (ix2 i j) :=
  (broadcastTo_ab1_abc_apply _ h' i j k).trans (shapeCast_ab_ab1_apply x h i j 0)

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A matrix carried along a new middle axis: `[a, c] → [a, 1, c] → [a, b, c]` at `(i, j, k)` is the matrix at `(i, k)`. -/
theorem keepMid_apply {a b c : ℕ} (x : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x h) h' (ix3 i j k) = x (ix2 i k) :=
  (broadcastTo_a1c_abc_apply _ h' i j k).trans (shapeCast_ac_a1c_apply x h i 0 k)

/-! ## One-axis reductions at the ideal values, at coordinates -/

variable {φ : FTy}

/-- The sum of an `[a, b]` matrix over its last axis, at row `i`. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ j : Fin b, src (ix2 i j) :=
  (Ideal.multiReduction_add_single src acc h hφ hacc (ix1 i)).trans
    (Finset.sum_congr rfl fun j _ => congrArg src (funext fun d => Fin.ext (by
      match d with | ⟨0, _⟩ => rfl | ⟨1, _⟩ => rfl)))

/-- The maximum of an `[a, b]` matrix over its last axis, at row `i`: the fold of `max` from the accumulator's value. -/
theorem max_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun j => src (ix2 i j)) :=
  (Ideal.multiReduction_maximumf_single src acc h hφ hacc (ix1 i)).trans
    (congrArg (Finset.fold max (Ideal.ofBits φ acc) · (Finset.univ : Finset (Fin b)))
      (funext fun j => congrArg src (funext fun d => Fin.ext (by
        match d with | ⟨0, _⟩ => rfl | ⟨1, _⟩ => rfl))))

/-- The sum of an `[a, b, c]` array over its middle axis, at `(i, k)`. -/
theorem sum_mid3 {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (funext fun d => Fin.ext (by
      match d with | ⟨0, _⟩ => rfl | ⟨1, _⟩ => rfl | ⟨2, _⟩ => rfl)))

/-- The sum of an `[a, b, c]` array over its last axis, at `(i, j)`. -/
theorem sum_last3 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun d => Fin.ext (by
      match d with | ⟨0, _⟩ => rfl | ⟨1, _⟩ => rfl | ⟨2, _⟩ => rfl)))

end Cert.LibRank3
-- ==== Proof.KernelPayload.lean ====
/-
  The kernel body's two stored values, read at an index.

  The body loads a block `P0 : [128, 128]` of logits (128 batch rows) and a block `P1 : [128, 128, 128]` of
  covariance matrices. Its first store is the softmax of every row of `P0`; its second is, for every batch row
  `b`, the collapsed sandwich `sandK` of that row's softmax and the matrix `P1 b`. Each reduction with kept
  dimensions is read through its cast and broadcast back at coordinates `(b, i, k)`, so that every entry of the
  stored values is the specification's scalar expression of row `b` of the blocks.
-/
import proofs.«150018_j26499948216844_2_alg».proof.Proof.Gen.KernelIdeal.Skeleton
import proofs.«150018_j26499948216844_2_alg».proof.Proof.SpecDefs
import proofs.«150018_j26499948216844_2_alg».proof.Proof.LibKeepdims
import proofs.«150018_j26499948216844_2_alg».proof.Proof.LibRank3
import Idealize.ShloMosaic.PureOps.Ideal.Laws

noncomputable section

namespace Cert.KernelIdeal.Payload

open Cert.KernelIdeal Cert.KernelIdeal.Gen Cert.Sandwich Idealize.ShloMosaic Idealize.ShloMosaic.ValueIdx

/-- The pattern `0xFF800000` (sign 1, exponent all ones, fraction 0) denotes `-∞`. -/
theorem neg_inf_pattern : Ideal.ofBits .f32 0xFF800000#32 = (⊥ : EReal) := by
  simp [Ideal.ofBits, Ideal.ieee]

/-- Row `b` of a block of logits. -/
abbrev rowOf (P0 : FVec Ideal S128x128 .f32) (b : Fin 128) : Fin 128 → EReal := fun j => P0 (ix2 b j)

/-- Matrix `b` of a block of covariances. -/
abbrev matOf (P1 : FVec Ideal S128x128x128 .f32) (b : Fin 128) : Fin 128 → Fin 128 → EReal := fun a c => P1 (ix3 b a c)

/-! ## The softmax store -/

/-- A per-row vector carried back along the rows: `[128] → [128, 1] → [128, 128]` at `(b, j)` is the vector at `b`. -/
theorem keepRow_apply (v : FVec Ideal S128 .f32) (b j : Fin 128) :
    broadcastTo S128x128 (shapeCast S128x1 v shapeCasts_S128_S128x1) broadcasts_S128x1_S128x128 (ix2 b j) = v (ix1 b) :=
  (Cert.LibKeepdims.broadcastTo_a1_ab_apply _ broadcasts_S128x1_S128x128 b j).trans
    (Cert.LibKeepdims.shapeCast_a_a1_apply v shapeCasts_S128_S128x1 b 0)

/-- The row maxima of the block. -/
theorem rowMax_apply (P0 : FVec Ideal S128x128 .f32) (b : Fin 128) :
    multiReduction .maximumf [1] S128 P0 0xFF800000#32 reduces_S128x128_S128 (.inl rfl) rfl (ix1 b) = rowMax (rowOf P0 b) :=
  (Cert.LibRank3.max_last2 P0 0xFF800000#32 reduces_S128x128_S128 (.inl rfl) rfl b).trans (by
    rw [neg_inf_pattern]; rfl)

/-- The shifted exponentials of the block, as the body computes them. -/
def eVec (P0 : FVec Ideal S128x128 .f32) : FVec Ideal S128x128 .f32 :=
  exp (subf P0 (broadcastTo S128x128 (shapeCast S128x1 (multiReduction .maximumf [1] S128 P0 0xFF800000#32 reduces_S128x128_S128 (.inl rfl) rfl) shapeCasts_S128_S128x1) broadcasts_S128x1_S128x128))

theorem eVec_apply (P0 : FVec Ideal S128x128 .f32) (b j : Fin 128) :
    eVec P0 (ix2 b j) = rowExp (rowOf P0 b) j := by
  show Ideal.exp (P0 (ix2 b j) - _) = Ideal.exp (P0 (ix2 b j) - rowMax (rowOf P0 b))
  exact congrArg (fun z => Ideal.exp (P0 (ix2 b j) - z)) ((keepRow_apply _ b j).trans (rowMax_apply P0 b))

/-- The first stored value is the quotient of the exponentials by their row sums carried back along the rows. -/
theorem pay1_eq (P0 : FVec Ideal S128x128 .f32) :
    k0_pay1 (F := Ideal) P0 = divf (eVec P0) (broadcastTo S128x128 (shapeCast S128x1 (multiReduction .add [1] S128 (eVec P0) 0x00000000#32 reduces_S128x128_S128 (.inl rfl) rfl) shapeCasts_S128_S128x1) broadcasts_S128x1_S128x128) := rfl

/-- THE FIRST STORE at `(b, j)`: the softmax of row `b` at `j`. -/
theorem pay1_apply (P0 : FVec Ideal S128x128 .f32) (b j : Fin 128) :
    k0_pay1 (F := Ideal) P0 (ix2 b j) = softRow (rowOf P0 b) j := by
  rw [pay1_eq]
  show Ideal.div (eVec P0 (ix2 b j)) _ = Ideal.div (rowExp (rowOf P0 b) j) (∑ k, rowExp (rowOf P0 b) k)
  rw [eVec_apply]
  refine congrArg (Ideal.div (rowExp (rowOf P0 b) j)) ?_
  refine (keepRow_apply _ b j).trans ?_
  refine (Cert.LibRank3.sum_last2 (eVec P0) 0x00000000#32 reduces_S128x128_S128 (.inl rfl) rfl b).trans ?_
  exact Finset.sum_congr rfl fun k _ => eVec_apply P0 b k

/-- So the rows of the first stored value are softmax rows. -/
theorem pay1_row (P0 : FVec Ideal S128x128 .f32) (b : Fin 128) :
    rowOf (k0_pay1 (F := Ideal) P0) b = softRow (rowOf P0 b) := funext fun j => pay1_apply P0 b j

/-! ## The sandwich store, over any matrix `p` of row vectors -/

/-- `s = pᵀ σ` per batch row: the sum over the middle axis of `p[:, :, None] * σ`. -/
def sVec (p : FVec Ideal S128x128 .f32) (P1 : FVec Ideal S128x128x128 .f32) : FVec Ideal S128x128 .f32 :=
  multiReduction .add [1] S128x128 (mulf (broadcastTo S128x128x128 (shapeCast S128x128x1 p shapeCasts_S128x128_S128x128x1) broadcasts_S128x128x1_S128x128x128) P1) 0x00000000#32 reduces_S128x128x128_S128x128 (.inl rfl) rfl

theorem sVec_apply (p : FVec Ideal S128x128 .f32) (P1 : FVec Ideal S128x128x128 .f32) (b k : Fin 128) :
    sVec p P1 (ix2 b k) = colSum (rowOf p b) (matOf P1 b) k := by
  refine (Cert.LibRank3.sum_mid3 _ 0x00000000#32 reduces_S128x128x128_S128x128 (.inl rfl) rfl b k).trans ?_
  refine Finset.sum_congr rfl fun j _ => ?_
  show _ * P1 (ix3 b j k) = p (ix2 b j) * P1 (ix3 b j k)
  exact congrArg (· * P1 (ix3 b j k)) (Cert.LibRank3.keepLast_apply p shapeCasts_S128x128_S128x128x1 broadcasts_S128x128x1_S128x128x128 b j k)

/-- `tmp = p[:, :, None] * (σ - s[:, None, :])`. -/
def tVec (p : FVec Ideal S128x128 .f32) (P1 : FVec Ideal S128x128x128 .f32) : FVec Ideal S128x128x128 .f32 :=
  mulf (broadcastTo S128x128x128 (shapeCast S128x128x1 p shapeCasts_S128x128_S128x128x1) broadcasts_S128x128x1_S128x128x128)
    (subf P1 (broadcastTo S128x128x128 (shapeCast S128x1x128 (sVec p P1) shapeCasts_S128x128_S128x1x128) broadcasts_S128x1x128_S128x128x128))

theorem tVec_apply (p : FVec Ideal S128x128 .f32) (P1 : FVec Ideal S128x128x128 .f32) (b i k : Fin 128) :
    tVec p P1 (ix3 b i k) = tmpK (rowOf p b) (matOf P1 b) i k := by
  show _ * (P1 (ix3 b i k) - _) = p (ix2 b i) * (P1 (ix3 b i k) - colSum (rowOf p b) (matOf P1 b) k)
  rw [Cert.LibRank3.keepLast_apply p shapeCasts_S128x128_S128x128x1 broadcasts_S128x128x1_S128x128x128 b i k,
    Cert.LibRank3.keepMid_apply (sVec p P1) shapeCasts_S128x128_S128x1x128 broadcasts_S128x1x128_S128x128x128 b i k,
    sVec_apply]

/-- `t = ∑ over the last axis of tmp * p[:, None, :]`. -/
def uVec (p : FVec Ideal S128x128 .f32) (P1 : FVec Ideal S128x128x128 .f32) : FVec Ideal S128x128 .f32 :=
  multiReduction .add [2] S128x128 (mulf (tVec p P1) (broadcastTo S128x128x128 (shapeCast S128x1x128 p shapeCasts_S128x128_S128x1x128) broadcasts_S128x1x128_S128x128x128)) 0x00000000#32 reduces_S128x128x128_S128x128_2 (.inl rfl) rfl

theorem uVec_apply (p : FVec Ideal S128x128 .f32) (P1 : FVec Ideal S128x128x128 .f32) (b i : Fin 128) :
    uVec p P1 (ix2 b i) = ∑ k, tmpK (rowOf p b) (matOf P1 b) i k * rowOf p b k := by
  refine (Cert.LibRank3.sum_last3 _ 0x00000000#32 reduces_S128x128x128_S128x128_2 (.inl rfl) rfl b i).trans ?_
  refine Finset.sum_congr rfl fun k _ => ?_
  show tVec p P1 (ix3 b i k) * _ = tmpK (rowOf p b) (matOf P1 b) i k * p (ix2 b k)
  rw [tVec_apply, Cert.LibRank3.keepMid_apply p shapeCasts_S128x128_S128x1x128 broadcasts_S128x1x128_S128x128x128 b i k]

/-- `sy = p[:, None, :] * (tmp - t[:, :, None])`. -/
def yVec (p : FVec Ideal S128x128 .f32) (P1 : FVec Ideal S128x128x128 .f32) : FVec Ideal S128x128x128 .f32 :=
  mulf (broadcastTo S128x128x128 (shapeCast S128x1x128 p shapeCasts_S128x128_S128x1x128) broadcasts_S128x1x128_S128x128x128)
    (subf (tVec p P1) (broadcastTo S128x128x128 (shapeCast S128x128x1 (uVec p P1) shapeCasts_S128x128_S128x128x1) broadcasts_S128x128x1_S128x128x128))

theorem yVec_apply (p : FVec Ideal S128x128 .f32) (P1 : FVec Ideal S128x128x128 .f32) (b i l : Fin 128) :
    yVec p P1 (ix3 b i l) = sandK (rowOf p b) (matOf P1 b) i l := by
  show _ * (tVec p P1 (ix3 b i l) - _) = p (ix2 b l) * (tmpK (rowOf p b) (matOf P1 b) i l - ∑ k, tmpK (rowOf p b) (matOf P1 b) i k * rowOf p b k)
  rw [Cert.LibRank3.keepMid_apply p shapeCasts_S128x128_S128x1x128 broadcasts_S128x1x128_S128x128x128 b i l,
    Cert.LibRank3.keepLast_apply (uVec p P1) shapeCasts_S128x128_S128x128x1 broadcasts_S128x128x1_S128x128x128 b i l,
    tVec_apply, uVec_apply]

/-- The second stored value is `yVec` of the first. -/
theorem pay2_eq (P0 : FVec Ideal S128x128 .f32) (P1 : FVec Ideal S128x128x128 .f32) :
    k0_pay2 (F := Ideal) P0 P1 = yVec (k0_pay1 (F := Ideal) P0) P1 := rfl

/-- THE SECOND STORE at `(b, i, l)`: the collapsed sandwich of row `b`'s softmax and matrix `b`. -/
theorem pay2_apply (P0 : FVec Ideal S128x128 .f32) (P1 : FVec Ideal S128x128x128 .f32) (b i l : Fin 128) :
    k0_pay2 (F := Ideal) P0 P1 (ix3 b i l) = sandK (softRow (rowOf P0 b)) (matOf P1 b) i l := by
  rw [pay2_eq, yVec_apply, pay1_row]

end Cert.KernelIdeal.Payload

end
-- ==== Proof.KernelArray.lean ====
/-
  From blocks to arrays: what the kernel's two result arrays hold after the run.

  The grid has 32 points; point `t` stages rows `128 t … 128 t + 127` of the logits and the matching 128 covariance
  matrices, and writes back the same rows of both results. A block's coordinate is always index × size + the
  coordinate inside the block, so block row `b` at point `t` is array row `128 t + b`. The body's stored values are,
  entry by entry, the specification's expressions of ONE batch row of the blocks, hence of one batch row of the
  arrays: point `t` writes block `t` of `G0` and of `G1K`; the 32 blocks tile the arrays, so after the run the result
  arrays ARE `G0` and `G1K` of the argument arrays.
-/
import proofs.«150018_j26499948216844_2_alg».proof.Proof.Gen.KernelIdeal.Value
import proofs.«150018_j26499948216844_2_alg».proof.Proof.KernelPayload

noncomputable section

namespace Cert.KernelIdeal.Arrays

open Cert.KernelIdeal Cert.KernelIdeal.Gen Cert.KernelIdeal.Value Cert.KernelIdeal.Payload Cert.Sandwich
open Idealize.ShloMosaic Idealize.ShloMosaic.TcCoe Idealize.SL.Sem Idealize.ShloMosaic.ValueIdx
open Idealize.ShloMosaic.Pipeline (Dat)

/-! ## One point, over variables: a block whose rows are rows of the arrays -/

/-- If block row `b` of `X0` is array row `R b` of `A0`, and the block index `(b, j)` sits at array index `(R b, j)`,
    then the first stored value of the block is `G0 A0` read through the block. -/
theorem pay1_block (A0 : FVec Ideal S4096x128 .f32) (X0 : FVec Ideal S128x128 .f32) (e : S128x128.Idx → S4096x128.Idx)
    (R : Fin 128 → Fin 4096) (hX0 : ∀ b j : Fin 128, X0 (ix2 b j) = A0 (ix2 (R b) j))
    (he : ∀ b j : Fin 128, e (ix2 b j) = ix2 (R b) j) (y : S128x128.Idx) :
    k0_pay1 (F := Ideal) X0 y = G0 A0 (e y) := by
  obtain ⟨b, j, rfl⟩ : ∃ (b j : Fin 128), y = ix2 b j := ⟨y 0, y 1, eq_ix2 y⟩
  rw [pay1_apply, he]
  show softRow (rowOf X0 b) j = softRow (muRow A0 (R b)) j
  exact congrArg (softRow · j) (funext fun j' => hX0 b j')

/-- Likewise the second stored value is `G1K A0 A1` read through the block. -/
theorem pay2_block (A0 : FVec Ideal S4096x128 .f32) (A1 : FVec Ideal S4096x128x128 .f32)
    (X0 : FVec Ideal S128x128 .f32) (X1 : FVec Ideal S128x128x128 .f32) (e : S128x128x128.Idx → S4096x128x128.Idx)
    (R : Fin 128 → Fin 4096) (hX0 : ∀ b j : Fin 128, X0 (ix2 b j) = A0 (ix2 (R b) j))
    (hX1 : ∀ b i k : Fin 128, X1 (ix3 b i k) = A1 (ix3 (R b) i k))
    (he : ∀ b i k : Fin 128, e (ix3 b i k) = ix3 (R b) i k) (y : S128x128x128.Idx) :
    k0_pay2 (F := Ideal) X0 X1 y = G1K A0 A1 (e y) := by
  obtain ⟨b, i, l, rfl⟩ : ∃ (b i l : Fin 128), y = ix3 b i l := ⟨y 0, y 1, y 2, eq_ix3 y⟩
  rw [pay2_apply, he]
  show sandK (softRow (rowOf X0 b)) (matOf X1 b) i l = sandK (softRow (muRow A0 (R b))) (sigMat A1 (R b)) i l
  have e0 : rowOf X0 b = muRow A0 (R b) := funext fun j' => hX0 b j'
  have e1 : matOf X1 b = sigMat A1 (R b) := funext fun a => funext fun c => hX1 b a c
  rw [e0, e1]

/-! ## The grid -/

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 32 points: every window's block index is `(t, 0[, 0])`. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Block row `b` at point `t` is array row `128 t + b`. -/
def rowAt (t : Fin cfg0.N) (b : Fin 128) : Fin 4096 :=
  ⟨t.val * 128 + b.val, by have ht : t.val < 32 := t.isLt.trans_eq N_0; have := b.isLt; omega⟩

/-- The logits block at point `t`, at `(b, j)`. -/
theorem iblk0_apply (c : Dev nD) (t : Fin cfg0.N) (b j : Fin 128) :
    iblk m c 0 t (ix2 b j) = m ((c : Thread nD τ).loc main_arg0) (ix2 (rowAt t b) j) := by
  obtain ⟨e0, e1, -⟩ := idx_facts t
  show V m c main_arg0 (((cfg0.win 0).blk t).view.emb (ix2 b j)) = V m c main_arg0 (ix2 (rowAt t b) j)
  refine congrArg (V m c main_arg0) (funext fun a => Fin.ext ?_)
  match a with
  | ⟨0, _⟩ => show win0_0.index t (0 : Fin 2) * 128 + 1 * b.val = t.val * 128 + b.val; omega
  | ⟨1, _⟩ => show win0_0.index t (1 : Fin 2) * 128 + 1 * j.val = j.val; omega

/-- The covariance block at point `t`, at `(b, i, k)`. -/
theorem iblk1_apply (c : Dev nD) (t : Fin cfg0.N) (b i k : Fin 128) :
    iblk m c 1 t (ix3 b i k) = m ((c : Thread nD τ).loc main_arg1) (ix3 (rowAt t b) i k) := by
  obtain ⟨-, -, e0, e1, e2, -⟩ := idx_facts t
  show V m c main_arg1 (((cfg0.win 1).blk t).view.emb (ix3 b i k)) = V m c main_arg1 (ix3 (rowAt t b) i k)
  refine congrArg (V m c main_arg1) (funext fun a => Fin.ext ?_)
  match a with
  | ⟨0, _⟩ => show win0_1.index t (0 : Fin 3) * 128 + 1 * b.val = t.val * 128 + b.val; omega
  | ⟨1, _⟩ => show win0_1.index t (1 : Fin 3) * 128 + 1 * i.val = i.val; omega
  | ⟨2, _⟩ => show win0_1.index t (2 : Fin 3) * 128 + 1 * k.val = k.val; omega

/-- Where the first result's block at point `t` sits in its array. -/
theorem emb2_apply (t : Fin cfg0.N) (b j : Fin 128) :
    ((cfg0.win 2).blk t).view.emb (ix2 b j) = ix2 (rowAt t b) j := by
  obtain ⟨-, -, -, -, -, e0, e1, -⟩ := idx_facts t
  refine funext fun a => Fin.ext ?_
  match a with
  | ⟨0, _⟩ => show win0_2.index t (0 : Fin 2) * 128 + 1 * b.val = t.val * 128 + b.val; omega
  | ⟨1, _⟩ => show win0_2.index t (1 : Fin 2) * 128 + 1 * j.val = j.val; omega

/-- Where the second result's block at point `t` sits in its array. -/
theorem emb3_apply (t : Fin cfg0.N) (b i k : Fin 128) :
    ((cfg0.win 3).blk t).view.emb (ix3 b i k) = ix3 (rowAt t b) i k := by
  obtain ⟨-, -, -, -, -, -, -, e0, e1, e2⟩ := idx_facts t
  refine funext fun a => Fin.ext ?_
  match a with
  | ⟨0, _⟩ => show win0_3.index t (0 : Fin 3) * 128 + 1 * b.val = t.val * 128 + b.val; omega
  | ⟨1, _⟩ => show win0_3.index t (1 : Fin 3) * 128 + 1 * i.val = i.val; omega
  | ⟨2, _⟩ => show win0_3.index t (2 : Fin 3) * 128 + 1 * k.val = k.val; omega

/-! ## What each point writes back -/

/-- Point `t` writes block `t` of `G0` of the logits. -/
theorem flushed2_eq (c : Dev nD) (t : Fin cfg0.N) :
    (dats m 0 c).flushed 2 t
      = ((cfg0.win 2).blk t).view.read (Elt Ideal) (G0 (m ((c : Thread nD τ).loc main_arg0))) := by
  rw [flushed2]
  unfold out0_2
  rw [View.canon_unit_zero hz2]
  simp only [View.ld_unit_zero (S := S128x128) hz2]
  funext y
  exact pay1_block (m ((c : Thread nD τ).loc main_arg0)) (iblk m c 0 t) (((cfg0.win 2).blk t).view.emb) (rowAt t)
    (iblk0_apply m c t) (emb2_apply t) y

/-- Point `t` writes block `t` of `G1K` of the logits and the covariances. -/
theorem flushed3_eq (c : Dev nD) (t : Fin cfg0.N) :
    (dats m 0 c).flushed 3 t
      = ((cfg0.win 3).blk t).view.read (Elt Ideal)
          (G1K (m ((c : Thread nD τ).loc main_arg0)) (m ((c : Thread nD τ).loc main_arg1))) := by
  rw [flushed3]
  unfold out0_3
  rw [View.canon_unit_zero hz3]
  simp only [View.ld_unit_zero (S := S128x128) hz2, View.ld_unit_zero (S := S128x128x128) hz3]
  funext y
  exact pay2_block (m ((c : Thread nD τ).loc main_arg0)) (m ((c : Thread nD τ).loc main_arg1)) (iblk m c 0 t) (iblk m c 1 t)
    (((cfg0.win 3).blk t).view.emb) (rowAt t) (iblk0_apply m c t) (iblk1_apply m c t) (emb3_apply t) y

/-! ## The blocks tile the arrays -/

theorem mem_blk2 (t : Fin cfg0.N) (i : S4096x128.Idx) :
    i ∈ ((cfg0.win 2).blk t).view.set ↔ ∀ a : Fin 2, win0_2.index t a * S128x128.size a ≤ (i a).val ∧ (i a).val < win0_2.index t a * S128x128.size a + S128x128.size a := by
  show i ∈ ((View.whole main_v0_0).slice (win0_2.rect t)).set ↔ _
  rw [View.set_slice_whole, Rect.mem_set_unit]
  exact Iff.rfl

theorem mem_blk3 (t : Fin cfg0.N) (i : S4096x128x128.Idx) :
    i ∈ ((cfg0.win 3).blk t).view.set ↔ ∀ a : Fin 3, win0_3.index t a * S128x128x128.size a ≤ (i a).val ∧ (i a).val < win0_3.index t a * S128x128x128.size a + S128x128x128.size a := by
  show i ∈ ((View.whole main_v0_1).slice (win0_3.rect t)).set ↔ _
  rw [View.set_slice_whole, Rect.mem_set_unit]
  exact Iff.rfl

/-- The point that covers array row `r` is `r / 128`. -/
def pointOf (r : Fin 4096) : Fin cfg0.N :=
  ⟨r.val / 128, by have hN : grid0.N = 32 := N_0; have := r.isLt; show r.val / 128 < grid0.N; rw [hN]; omega⟩

theorem cover2 (i : S4096x128.Idx) :
    ∃ t : Fin cfg0.N, (cfg0.win 2).flush t = true ∧ i ∈ ((cfg0.win 2).blk t).view.set := by
  have hi0 : (i 0).val < 4096 := (i 0).isLt
  have hi1 : (i 1).val < 128 := (i 1).isLt
  refine ⟨pointOf (i 0), flush0_2 _, ?_⟩
  obtain ⟨-, -, -, -, -, e0, e1, -⟩ := idx_facts (pointOf (i 0))
  have ht : (pointOf (i 0)).val = (i 0).val / 128 := rfl
  rw [mem_blk2]
  intro a
  match a with
  | ⟨0, _⟩ => show win0_2.index (pointOf (i 0)) (0 : Fin 2) * 128 ≤ (i 0).val ∧ (i 0).val < win0_2.index (pointOf (i 0)) (0 : Fin 2) * 128 + 128; omega
  | ⟨1, _⟩ => show win0_2.index (pointOf (i 0)) (1 : Fin 2) * 128 ≤ (i 1).val ∧ (i 1).val < win0_2.index (pointOf (i 0)) (1 : Fin 2) * 128 + 128; omega

theorem cover3 (i : S4096x128x128.Idx) :
    ∃ t : Fin cfg0.N, (cfg0.win 3).flush t = true ∧ i ∈ ((cfg0.win 3).blk t).view.set := by
  have hi0 : (i 0).val < 4096 := (i 0).isLt
  have hi1 : (i 1).val < 128 := (i 1).isLt
  have hi2 : (i 2).val < 128 := (i 2).isLt
  refine ⟨pointOf (i 0), flush0_3 _, ?_⟩
  obtain ⟨-, -, -, -, -, -, -, e0, e1, e2⟩ := idx_facts (pointOf (i 0))
  have ht : (pointOf (i 0)).val = (i 0).val / 128 := rfl
  rw [mem_blk3]
  intro a
  match a with
  | ⟨0, _⟩ => show win0_3.index (pointOf (i 0)) (0 : Fin 3) * 128 ≤ (i 0).val ∧ (i 0).val < win0_3.index (pointOf (i 0)) (0 : Fin 3) * 128 + 128; omega
  | ⟨1, _⟩ => show win0_3.index (pointOf (i 0)) (1 : Fin 3) * 128 ≤ (i 1).val ∧ (i 1).val < win0_3.index (pointOf (i 0)) (1 : Fin 3) * 128 + 128; omega
  | ⟨2, _⟩ => show win0_3.index (pointOf (i 0)) (2 : Fin 3) * 128 ≤ (i 2).val ∧ (i 2).val < win0_3.index (pointOf (i 0)) (2 : Fin 3) * 128 + 128; omega

/-! ## The arrays after the run -/

/-- The first result array after the run. -/
theorem final2 (c : Dev nD) : (dats m 0 c).arrAt 2 cfg0.N = G0 (m ((c : Thread nD τ).loc main_arg0)) :=
  (dats m 0 c).arrAt_eq_of_cover 2 (G0 (m ((c : Thread nD τ).loc main_arg0))) (fun t _ => flushed2_eq m c t) cover2

/-- The second result array after the run. -/
theorem final3 (c : Dev nD) :
    (dats m 0 c).arrAt 3 cfg0.N = G1K (m ((c : Thread nD τ).loc main_arg0)) (m ((c : Thread nD τ).loc main_arg1)) :=
  (dats m 0 c).arrAt_eq_of_cover 3 (G1K (m ((c : Thread nD τ).loc main_arg0)) (m ((c : Thread nD τ).loc main_arg1)))
    (fun t _ => flushed3_eq m c t) cover3

/-- The kernel's run with both result arrays at their functions of the arguments, the arguments unchanged. -/
theorem run : θ_run defs (onTc (τ := τ) (main (F := Ideal))) ⟨m, fun _ => 0, ρ⟩ fun r => ∀ c : Dev nD,
      r.2.mem ((c : Thread nD τ).loc main_v0_0) = G0 (m ((c : Thread nD τ).loc main_arg0))
      ∧ r.2.mem ((c : Thread nD τ).loc main_v0_1) = G1K (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1, (h c).2.2.2⟩)
    (run_blocks m ρ)

end Cert.KernelIdeal.Arrays

end
-- ==== Proof.RefValue.lean ====
/-
  The reference is the specification. Read one operation at a time at the ideal values, the reference's first
  result at `(b, j)` is the softmax of row `b` of the logits (its row maximum is the fold of `max` from `-∞`; the
  extra `max` against `-∞` is the identity), and its second result at `(b, i, l)` is the sandwich `J σ Jᵀ` formed
  by two contractions, `∑ k, (∑ j, σ j k * J i j) * J l k`, with `J i j = p i * δ i j - p i * p j` and `δ` the
  comparison of two iotas converted to a float.
-/
import proofs.«150018_j26499948216844_2_alg».proof.Proof.Gen.ReferenceIdeal.Read
import proofs.«150018_j26499948216844_2_alg».proof.Proof.SpecDefs
import Idealize.ShloMosaic.PureOps.Ideal.Laws
import Idealize.ShloMosaic.Lib.ValueIdx
import Idealize.ShloMosaic.Lib.Pipeline.Value

noncomputable section

namespace Cert.RefValue

open Cert.ReferenceIdeal Cert.ReferenceIdeal.Gen Cert.ReferenceIdeal.Read Cert.Sandwich Idealize.ShloMosaic Idealize.ShloMosaic.ValueIdx

/-- The pattern `0xFF800000` denotes `-∞`. -/
theorem ofBits_neg_inf : Ideal.ofBits .f32 0xFF800000#32 = (⊥ : EReal) := by
  simp [Ideal.ofBits, Ideal.ieee]

/-- The max-reduce of row `b` from `-∞` is the row's maximum. -/
theorem v0_at (x0 : (⟨S4096x128, .f32⟩ : BufTy).Contents (Elt Ideal)) (b : Fin 4096) :
    val_main_v0 (F := Ideal) x0 (ix1 b) = rowMax (muRow x0 b) := by
  unfold val_main_v0
  have h : S4096x128.Reduces [(1 : Fin S4096x128.rank)] S4096 := by decide
  refine (Host.reduce_eq_fold_single (FloatOps.maximumf (F := Ideal) (φ := .f32)) x0 _ reducesTo_S4096x128_S4096_d1 h h_S_ (ix1 b)).trans ?_
  have hl : (x0 ∘ h.lift (ix1 b)) = muRow x0 b := by
    funext k
    show x0 (h.lift (ix1 b) k) = x0 (ix2 b k)
    refine congrArg x0 (funext fun a => Fin.ext ?_)
    match a with
    | ⟨0, _⟩ => rfl
    | ⟨1, _⟩ => rfl
  rw [hl]
  show Finset.fold max (Ideal.ofBits .f32 0xFF800000#32) (muRow x0 b) Finset.univ = _
  rw [ofBits_neg_inf]
  rfl

/-- The row's maximum, after the redundant `max` against `-∞`. -/
theorem v2_at (x0 : (⟨S4096x128, .f32⟩ : BufTy).Contents (Elt Ideal)) (b : Fin 4096) :
    val_main_v2 (F := Ideal) x0 (ix1 b) = rowMax (muRow x0 b) := by
  rw [val_main_v2_apply, val_main_v1_apply, val_main_cst_0_apply, v0_at]
  show max (Ideal.ofBits .f32 0xFF800000#32) _ = _
  rw [ofBits_neg_inf]
  exact max_bot_left _

/-- The row maximum, broadcast along the row. -/
theorem v4_at (x0 : (⟨S4096x128, .f32⟩ : BufTy).Contents (Elt Ideal)) (b : Fin 4096) (j : Fin 128) :
    val_main_v4 (F := Ideal) x0 (ix2 b j) = rowMax (muRow x0 b) := by
  rw [val_main_v4_apply, val_main_v3_apply]
  have e : idx_main_v3 (idx_main_v4 (ix2 b j)) = ix1 b :=
    funext fun a => Fin.ext (by match a with | ⟨0, _⟩ => rfl)
  rw [e, v2_at]

/-- The shifted exponentials. -/
theorem v6_at (x0 : (⟨S4096x128, .f32⟩ : BufTy).Contents (Elt Ideal)) (b : Fin 4096) (j : Fin 128) :
    val_main_v6 (F := Ideal) x0 (ix2 b j) = rowExp (muRow x0 b) j := by
  rw [val_main_v6_apply, val_main_v5_apply, v4_at]
  rfl

/-- The row's sum of shifted exponentials. -/
theorem v7_at (x0 : (⟨S4096x128, .f32⟩ : BufTy).Contents (Elt Ideal)) (b : Fin 4096) :
    val_main_v7 (F := Ideal) x0 (ix1 b) = ∑ k, rowExp (muRow x0 b) k := by
  rw [val_main_v7_apply, val_main_cst_1_apply]
  show Ideal.ofBits .f32 0x00000000#32 + _ = _
  rw [Ideal.ofBits_zero_f32, zero_add]
  refine Finset.sum_congr rfl fun k _ => ?_
  have e : idx_main_v7 (ix1 b) k = ix2 b k :=
    funext fun a => Fin.ext (by match a with | ⟨0, _⟩ => rfl | ⟨1, _⟩ => rfl)
  rw [e, v6_at]

/-- The first result at an index: the softmax of the row. -/
theorem v10_at (x0 : (⟨S4096x128, .f32⟩ : BufTy).Contents (Elt Ideal)) (b : Fin 4096) (j : Fin 128) :
    val_main_v10 (F := Ideal) x0 (ix2 b j) = softRow (muRow x0 b) j := by
  rw [val_main_v10_apply, val_main_v9_apply, val_main_v8_apply]
  have e : idx_main_v8 (idx_main_v9 (ix2 b j)) = ix1 b :=
    funext fun a => Fin.ext (by match a with | ⟨0, _⟩ => rfl)
  rw [e, v7_at, v6_at]
  rfl

/-- The reference's first result is the softmax of every row. -/
theorem ref0 (x0 : (⟨S4096x128, .f32⟩ : BufTy).Contents (Elt Ideal)) :
    val_main_v10 (F := Ideal) x0 = G0 x0 := by
  funext i
  obtain ⟨b, j, rfl⟩ : ∃ (b : Fin 4096) (j : Fin 128), i = ix2 b j := ⟨i 0, i 1, eq_ix2 i⟩
  exact v10_at x0 b j

/-- Comparing the two iotas and converting gives the identity matrix's entry. -/
theorem eye_at (i j : Fin 128) :
    FloatOps.uitofp (F := Ideal) .f32
      (IntOp.cmpi .eq (IntOp.addi (BitVec.ofNat 32 i.val) 0#32) (BitVec.ofNat 32 j.val)) = delta i j := by
  show (((BitVec.ofBool (BitVec.ofNat 32 i.val + 0#32 == BitVec.ofNat 32 j.val)).toNat : ℝ) : EReal) = _
  unfold delta
  by_cases h : i = j
  · subst h
    simp
  · have hne : ¬ (BitVec.ofNat 32 i.val = BitVec.ofNat 32 j.val) := by
      intro e
      apply h
      apply Fin.ext
      have e' := congrArg BitVec.toNat e
      rw [BitVec.toNat_ofNat, BitVec.toNat_ofNat, Nat.mod_eq_of_lt (by have := i.isLt; omega),
        Nat.mod_eq_of_lt (by have := j.isLt; omega)] at e'
      exact e'
    simp [h, hne]

/-- The identity matrix. -/
theorem v16_at (i j : Fin 128) : val_main_v16 (F := Ideal) (ix2 i j) = delta i j := by
  rw [val_main_v16_apply, val_main_v15_apply, val_main_v14_apply, val_main_v11_apply, val_main_v12_apply,
    val_main_v13_apply, val_main_c_apply]
  exact eye_at i j

/-- The identity matrix, broadcast over the batch. -/
theorem v20_at (b : Fin 4096) (i j : Fin 128) : val_main_v20 (F := Ideal) (ix3 b i j) = delta i j := by
  rw [val_main_v20_apply, val_main_v18_apply]
  have e : idx_main_v18 (idx_main_v20 (ix3 b i j)) = ix2 i j :=
    funext fun a => Fin.ext (by match a with | ⟨0, _⟩ => rfl | ⟨1, _⟩ => rfl)
  rw [e, v16_at]

/-- The softmax broadcast along the last axis. -/
theorem v19_at (x0 : (⟨S4096x128, .f32⟩ : BufTy).Contents (Elt Ideal)) (b : Fin 4096) (i j : Fin 128) :
    val_main_v19 (F := Ideal) x0 (ix3 b i j) = softRow (muRow x0 b) i := by
  rw [val_main_v19_apply, val_main_v17_apply]
  have e : idx_main_v17 (idx_main_v19 (ix3 b i j)) = ix2 b i :=
    funext fun a => Fin.ext (by match a with | ⟨0, _⟩ => rfl | ⟨1, _⟩ => rfl)
  rw [e, v10_at]

/-- The softmax broadcast along the last axis, again. -/
theorem v24_at (x0 : (⟨S4096x128, .f32⟩ : BufTy).Contents (Elt Ideal)) (b : Fin 4096) (i j : Fin 128) :
    val_main_v24 (F := Ideal) x0 (ix3 b i j) = softRow (muRow x0 b) i := by
  rw [val_main_v24_apply, val_main_v22_apply]
  have e : idx_main_v22 (idx_main_v24 (ix3 b i j)) = ix2 b i :=
    funext fun a => Fin.ext (by match a with | ⟨0, _⟩ => rfl | ⟨1, _⟩ => rfl)
  rw [e, v10_at]

/-- The softmax broadcast along the middle axis. -/
theorem v25_at (x0 : (⟨S4096x128, .f32⟩ : BufTy).Contents (Elt Ideal)) (b : Fin 4096) (i j : Fin 128) :
    val_main_v25 (F := Ideal) x0 (ix3 b i j) = softRow (muRow x0 b) j := by
  rw [val_main_v25_apply, val_main_v23_apply]
  have e : idx_main_v23 (idx_main_v25 (ix3 b i j)) = ix2 b j :=
    funext fun a => Fin.ext (by match a with | ⟨0, _⟩ => rfl | ⟨1, _⟩ => rfl)
  rw [e, v10_at]

/-- The softmax Jacobian of row `b`. -/
theorem v27_at (x0 : (⟨S4096x128, .f32⟩ : BufTy).Contents (Elt Ideal)) (b : Fin 4096) (i j : Fin 128) :
    val_main_v27 (F := Ideal) x0 (ix3 b i j) = jac (softRow (muRow x0 b)) i j := by
  rw [val_main_v27_apply, val_main_v21_apply, val_main_v26_apply, v19_at, v20_at, v24_at, v25_at]
  rfl

/-- The first contraction: `∑ j, σ j k * J i j`, stored at `(b, k, i)`. -/
theorem v28_at (x0 : (⟨S4096x128, .f32⟩ : BufTy).Contents (Elt Ideal))
    (x1 : (⟨S4096x128x128, .f32⟩ : BufTy).Contents (Elt Ideal)) (b : Fin 4096) (k i : Fin 128) :
    val_main_v28 (F := Ideal) x0 x1 (ix3 b k i)
      = ∑ j, sigMat x1 b j k * jac (softRow (muRow x0 b)) i j := by
  rw [val_main_v28_apply]
  refine Finset.sum_congr rfl fun j _ => ?_
  have el : lidx_main_v28 (ix3 b k i) j = ix3 b j k :=
    funext fun a => Fin.ext (by match a with | ⟨0, _⟩ => rfl | ⟨1, _⟩ => rfl | ⟨2, _⟩ => rfl)
  have er : ridx_main_v28 (ix3 b k i) j = ix3 b i j :=
    funext fun a => Fin.ext (by match a with | ⟨0, _⟩ => rfl | ⟨1, _⟩ => rfl | ⟨2, _⟩ => rfl)
  rw [el, er, v27_at]
  rfl

/-- The second contraction: the sandwich `J σ Jᵀ` as the reference forms it. -/
theorem v29_at (x0 : (⟨S4096x128, .f32⟩ : BufTy).Contents (Elt Ideal))
    (x1 : (⟨S4096x128x128, .f32⟩ : BufTy).Contents (Elt Ideal)) (b : Fin 4096) (i l : Fin 128) :
    val_main_v29 (F := Ideal) x0 x1 (ix3 b i l)
      = sandR (softRow (muRow x0 b)) (sigMat x1 b) i l := by
  rw [val_main_v29_apply]
  unfold sandR
  refine Finset.sum_congr rfl fun k _ => ?_
  have el : lidx_main_v29 (ix3 b i l) k = ix3 b k i :=
    funext fun a => Fin.ext (by match a with | ⟨0, _⟩ => rfl | ⟨1, _⟩ => rfl | ⟨2, _⟩ => rfl)
  have er : ridx_main_v29 (ix3 b i l) k = ix3 b l k :=
    funext fun a => Fin.ext (by match a with | ⟨0, _⟩ => rfl | ⟨1, _⟩ => rfl | ⟨2, _⟩ => rfl)
  rw [el, er, v28_at, v27_at]

/-- The reference's second result is the two-contraction sandwich of every batch element. -/
theorem ref1 (x0 : (⟨S4096x128, .f32⟩ : BufTy).Contents (Elt Ideal))
    (x1 : (⟨S4096x128x128, .f32⟩ : BufTy).Contents (Elt Ideal)) :
    val_main_v29 (F := Ideal) x0 x1 = G1R x0 x1 := by
  funext i
  obtain ⟨b, r, c, rfl⟩ : ∃ (b : Fin 4096) (r c : Fin 128), i = ix3 b r c := ⟨i 0, i 1, i 2, eq_ix3 i⟩
  exact v29_at x0 x1 b r c

end Cert.RefValue

end
-- ==== Proof.SpecLaw.lean ====
/-
  The sandwich law: for a softmax row p (every entry a real number) and a matrix σ of real
  numbers, the collapsed form sandK p σ of J σ Jᵀ equals the twice-contracted form sandR p σ.

  The extended reals are not a ring (a * (b - c) = a * b - a * c fails at the infinities), so the
  identity is proved over ℝ, where it is the distributive law plus ∑ k, f k * δ l k = f l, and
  carried to EReal along the coercion: a softmax of finite logits is finite (the maximum of a
  nonempty finite row is finite, the exponentials are real and their sum is a positive real).
-/
import proofs.«150018_j26499948216844_2_alg».proof.Proof.SpecDefs
import Mathlib.Data.EReal.Basic
import Mathlib.Data.EReal.Operations
import Mathlib.Data.EReal.Inv
import Mathlib.Data.Finset.Fold
import Mathlib.Analysis.SpecialFunctions.Exp
import Mathlib.Tactic

noncomputable section

namespace Cert.Sandwich

open Idealize.ShloMosaic

variable {n : ℕ}

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Contracting against a diagonal-minus-rank-one row, over the reals. -/
theorem contract_real (f q : Fin n → ℝ) (a : ℝ) (l : Fin n) :
    ∑ k, f k * (a * (if l = k then 1 else 0) - a * q k) = a * (f l - ∑ k, f k * q k) := by
  have h1 : ∑ k, f k * (a * (if l = k then (1 : ℝ) else 0)) = a * f l := by
    have : ∀ k, f k * (a * (if l = k then (1 : ℝ) else 0)) = if l = k then a * f k else 0 := by
      intro k; split_ifs <;> ring
    simp only [this, Finset.sum_ite_eq, Finset.mem_univ, if_true]
  have h2 : ∑ k, f k * (a * q k) = a * ∑ k, f k * q k := by
    rw [Finset.mul_sum]; exact Finset.sum_congr rfl (fun k _ => by ring)
  simp only [mul_sub, Finset.sum_sub_distrib, h1, h2]

/-- The two forms of the sandwich agree over the reals. -/
theorem sand_real (p : Fin n → ℝ) (s : Fin n → Fin n → ℝ) (i l : Fin n) :
    p l * (p i * (s i l - ∑ j, p j * s j l) - ∑ k, p i * (s i k - ∑ j, p j * s j k) * p k)
      = ∑ k, (∑ j, s j k * (p i * (if i = j then 1 else 0) - p i * p j))
          * (p l * (if l = k then 1 else 0) - p l * p k) := by
  simp only [contract_real]
  simp only [mul_comm (s _ _) (p _)]

/-- The identity matrix's entry is the coercion of the real one. -/
theorem delta_coe (i j : Fin n) : delta i j = (((if i = j then 1 else 0 : ℝ)) : EReal) := by
  unfold delta; split_ifs <;> simp

/-- The kernel's form on real data is the coercion of its real expression. -/
theorem sandK_coe (p : Fin n → ℝ) (s : Fin n → Fin n → ℝ) (i l : Fin n) :
    sandK (fun j => (p j : EReal)) (fun a b => (s a b : EReal)) i l
      = ((p l * (p i * (s i l - ∑ j, p j * s j l)
          - ∑ k, p i * (s i k - ∑ j, p j * s j k) * p k) : ℝ) : EReal) := by
  simp only [sandK, tmpK, colSum, ← EReal.coe_mul, ← coe_sum, ← EReal.coe_sub]

/-- The reference's form on real data is the coercion of its real expression. -/
theorem sandR_coe (p : Fin n → ℝ) (s : Fin n → Fin n → ℝ) (i l : Fin n) :
    sandR (fun j => (p j : EReal)) (fun a b => (s a b : EReal)) i l
      = ((∑ k, (∑ j, s j k * (p i * (if i = j then 1 else 0) - p i * p j))
          * (p l * (if l = k then 1 else 0) - p l * p k) : ℝ) : EReal) := by
  simp only [sandR, jac, delta_coe, ← EReal.coe_mul, ← coe_sum, ← EReal.coe_sub]

/-- The maximum of a nonempty row of real numbers is a real number. -/
theorem rowMax_coe (hn : 0 < n) (x : Fin n → ℝ) :
    ∃ M : ℝ, rowMax (fun j => (x j : EReal)) = (M : EReal) := by
  have h1 : rowMax (fun j => (x j : EReal)) ≠ ⊤ := by
    apply ne_of_lt
    rw [rowMax, Finset.fold_max_lt]
    exact ⟨bot_lt_top, fun j _ => EReal.coe_lt_top _⟩
  have h2 : rowMax (fun j => (x j : EReal)) ≠ ⊥ := by
    apply ne_of_gt
    rw [rowMax, Finset.lt_fold_max]
    exact Or.inr ⟨⟨0, hn⟩, Finset.mem_univ _, EReal.bot_lt_coe _⟩
  exact ⟨_, (EReal.coe_toReal h1 h2).symm⟩

/-- The softmax of a nonempty row of real numbers is a row of real numbers. -/
theorem softRow_coe (hn : 0 < n) (x : Fin n → ℝ) :
    ∃ p : Fin n → ℝ, softRow (fun j => (x j : EReal)) = fun j => (p j : EReal) := by
  obtain ⟨M, hM⟩ := rowMax_coe hn x
  have hE : ∀ j, rowExp (fun j => (x j : EReal)) j = ((Real.exp (x j - M) : ℝ) : EReal) := by
    intro j
    rw [rowExp, hM, ← EReal.coe_sub, Ideal.exp_coe]
  have hS : 0 < ∑ k, Real.exp (x k - M) :=
    Finset.sum_pos (fun k _ => Real.exp_pos _) ⟨⟨0, hn⟩, Finset.mem_univ _⟩
  refine ⟨fun j => Real.exp (x j - M) * (1 / ∑ k, Real.exp (x k - M)), ?_⟩
  funext j
  rw [softRow]
  simp only [hE]
  rw [← coe_sum, Ideal.div_coe (ne_of_gt hS), ← EReal.coe_mul]

/-- The sandwich law at a softmax of finite logits and a finite matrix. -/
theorem sand_eq {n : ℕ} (hn : 0 < n) (x : Fin n → EReal) (σ : Fin n → Fin n → EReal)
    (hx : ∀ j, x j ≠ ⊤ ∧ x j ≠ ⊥) (hσ : ∀ a b, σ a b ≠ ⊤ ∧ σ a b ≠ ⊥) (i l : Fin n) :
    sandK (softRow x) σ i l = sandR (softRow x) σ i l := by
  obtain ⟨xr, rfl⟩ : ∃ xr : Fin n → ℝ, x = fun j => (xr j : EReal) :=
    ⟨fun j => (x j).toReal, funext fun j => (EReal.coe_toReal (hx j).1 (hx j).2).symm⟩
  obtain ⟨sr, rfl⟩ : ∃ sr : Fin n → Fin n → ℝ, σ = fun a b => (sr a b : EReal) :=
    ⟨fun a b => (σ a b).toReal,
      funext fun a => funext fun b => (EReal.coe_toReal (hσ a b).1 (hσ a b).2).symm⟩
  obtain ⟨p, hp⟩ := softRow_coe hn xr
  rw [hp, sandK_coe, sandR_coe, sand_real]

/-- The array-level statement: the kernel's and the reference's second results agree. -/
theorem G1K_eq_G1R (mu : (⟨2, ![4096, 128]⟩ : Shape).Idx → EReal)
    (σ : (⟨3, ![4096, 128, 128]⟩ : Shape).Idx → EReal)
    (hmu : ∀ i, mu i ≠ ⊤ ∧ mu i ≠ ⊥) (hσ : ∀ i, σ i ≠ ⊤ ∧ σ i ≠ ⊥) : G1K mu σ = G1R mu σ := by
  funext i
  exact sand_eq (by decide : 0 < 128) _ _ (fun j => hmu _) (fun a b => hσ _) _ _

end Cert.Sandwich

end
-- ==== Proof.Finite.lean ====
import proofs.«150018_j26499948216844_2_alg».proof.Pre_finite_inputs
import Idealize.ShloMosaic.PureOps.Ideal
import Idealize.ShloMosaic.PureOps.Ideal.Laws
import Idealize.ShloMosaic.Lib.ReduceAll
import Idealize.ShloMosaic.Lib.ValueIdx

/-!
  From the precondition to "every input entry is a real number".

  The precondition says: every entry `x` of either input has `|x| < +∞`. In the extended reals
  `|x| = max x (-x)`, and `max x (-x) < ⊤` excludes `x = ⊤` (then `max = ⊤`) and `x = ⊥` (then `-x = ⊤`).
-/

namespace Cert.Finite

open Idealize.ShloMosaic Idealize.ShloMosaic.ValueIdx

/-- The pattern `0x7F800000` (sign 0, exponent all ones, fraction 0) denotes `+∞`. -/
theorem inf_pattern : Ideal.ofBits .f32 0x7F800000#32 = (⊤ : EReal) := by
  simp [Ideal.ofBits, Ideal.ieee]

/-- `|x| < +∞` forces `x` to be neither infinity. -/
theorem real_of_abs_lt (x : EReal)
    (h : Ideal.cmp .olt (max x (-x)) (Ideal.ofBits .f32 0x7F800000#32) = 1#1) : x ≠ ⊤ ∧ x ≠ ⊥ := by
  rw [inf_pattern] at h
  have hlt : max x (-x) < ⊤ := by
    by_contra hn
    simp [Ideal.cmp, hn] at h
  refine ⟨?_, ?_⟩
  · rintro rfl
    simp at hlt
  · rintro rfl
    simp at hlt

instance : Subsingleton Cert.Pre_finite_inputs.S_.Idx := ⟨fun a b => funext fun d => d.elim0⟩

theorem of_pre [Cert.Pre_finite_inputs.Facts]
    (a0 : FVec Ideal Cert.Pre_finite_inputs.S4096x128 .f32) (a1 : FVec Ideal Cert.Pre_finite_inputs.S4096x128x128 .f32)
    (h : Cert.Pre_finite_inputs.fn (F := Ideal) a0 a1 = fun _ => 1#1) :
    (∀ i, a0 i ≠ ⊤ ∧ a0 i ≠ ⊥) ∧ (∀ i, a1 i ≠ ⊤ ∧ a1 i ≠ ⊥) := by
  have h0 := congrFun h ix0
  unfold Cert.Pre_finite_inputs.fn at h0
  dsimp only at h0
  obtain ⟨e0, e1⟩ := IntOp.andi_eq_one.1 h0
  refine ⟨fun i => ?_, fun i => ?_⟩
  · have := Host.reduce_andi_all _ _ _ _ _ e0 i
    exact real_of_abs_lt (a0 i) this
  · have := Host.reduce_andi_all _ _ _ _ _ e1 i
    exact real_of_abs_lt (a1 i) this

end Cert.Finite
-- ==== Proof.lean ====
/-
  The certificate of the softmax-covariance kernel against its reference: `Cert.Claim`.

  Both programs return the softmax `p` of every row of the logits and, per batch element, the covariance
  `J σ Jᵀ` pushed through the softmax Jacobian `J = diag p - p pᵀ`. The reference forms `J` and contracts
  twice; the kernel collapses each product with `J` to a matrix–vector product. Read at the ideal values:
  the kernel's result arrays are `G0` and `G1K` of the argument arrays (the body's stored values entry by entry,
  then the 32 blocks tiled over the arrays); the reference's are `G0` and `G1R` (its operations read one at a
  time); and `G1K = G1R` wherever every input entry is a real number — the distributive law, which fails at
  the infinities and is the one place the precondition is used. The three frames are the generated runs; the
  kernel's idealization rewrote nothing, so there is nothing to preserve.
-/
import proofs.«150018_j26499948216844_2_alg».proof.Defs
import proofs.«150018_j26499948216844_2_alg».proof.Proof.Gen.Kernel
import proofs.«150018_j26499948216844_2_alg».proof.Proof.Gen.Kernel.Skeleton
import proofs.«150018_j26499948216844_2_alg».proof.Proof.Gen.Kernel.Launch
import proofs.«150018_j26499948216844_2_alg».proof.Proof.Gen.Kernel.Points
import proofs.«150018_j26499948216844_2_alg».proof.Proof.Gen.Kernel.Frame
import proofs.«150018_j26499948216844_2_alg».proof.Proof.Gen.KernelIdeal
import proofs.«150018_j26499948216844_2_alg».proof.Proof.Gen.KernelIdeal.Skeleton
import proofs.«150018_j26499948216844_2_alg».proof.Proof.Gen.KernelIdeal.Launch
import proofs.«150018_j26499948216844_2_alg».proof.Proof.Gen.KernelIdeal.Points
import proofs.«150018_j26499948216844_2_alg».proof.Proof.Gen.KernelIdeal.Frame
import proofs.«150018_j26499948216844_2_alg».proof.Proof.Gen.ReferenceIdeal
import proofs.«150018_j26499948216844_2_alg».proof.Proof.Gen.Pre_finite_inputs
import proofs.«150018_j26499948216844_2_alg».proof.Proof.Gen.KernelIdeal.Value
import proofs.«150018_j26499948216844_2_alg».proof.Proof.Gen.ReferenceIdeal.Run
import proofs.«150018_j26499948216844_2_alg».proof.Proof.Gen.ReferenceIdeal.Read
import proofs.«150018_j26499948216844_2_alg».proof.Proof.KernelArray
import proofs.«150018_j26499948216844_2_alg».proof.Proof.RefValue
import proofs.«150018_j26499948216844_2_alg».proof.Proof.SpecLaw
import proofs.«150018_j26499948216844_2_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the softmax `G0` and the sandwich: the kernel's
    collapsed form `G1K`, the reference's twice-contracted form `G1R`, equal because the inputs are finite. -/
theorem algebraic : Cert.algebraic_KernelIdeal_ReferenceIdeal := by
  intro m ρ m' ρ' hpre hagree
  refine ⟨fun c => Cert.Sandwich.G0 (m ((c.tc : Thread Cert.KernelIdeal.nD Cert.KernelIdeal.τ).loc Cert.KernelIdeal.main_arg0)),
    fun c => Cert.Sandwich.G1K (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Arrays.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v10_eq, Cert.RefValue.ref0, (hagree c).1]
  · rw [(h c).2.1, Cert.ReferenceIdeal.Read.val_main_v29_eq, Cert.RefValue.ref1, (hagree c).1, (hagree c).2]
    obtain ⟨h0, h1⟩ := Cert.Finite.of_pre _ _ (hpre c)
    exact (Cert.Sandwich.G1K_eq_G1R _ _ h0 h1).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
